-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x1x2048 : Shape := ⟨4, ![4, 1, 1, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S4x1x1x2048 : S_.BroadcastsInDim S4x1x1x2048 (![] : Fin 0 → Fin S4x1x1x2048.rank)
  reducesTo_S4x1x1x2048_S_d0_1_2_3 : S4x1x1x2048.ReducesTo [0, 1, 2, 3] S_

variable [Facts]

def fn_part1 {F : FTy → Type} [FloatOps F] (main_v13 : IVec S_ 1) (main_v16 : IVec S4x1x1x2048 1) : IVec S_ 1 :=
  let main_c_5 : IVec S_ 1 := constantI S_ 1 1#1
  let main_v17 : IVec S_ 1 := (fun x v => Host.reduce IntOp.andi x v reducesTo_S4x1x1x2048_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x64 .f32) (main_arg3 : FVec F S4x1x1x2048 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S4x1x1x2048 .f32 := Host.absf main_arg3
  let main_cst_4 : FVec F S_ .f32 := constant S_ .f32 0x7F800000#32
  let main_v15 : FVec F S4x1x1x2048 .f32 := broadcastInDim S4x1x1x2048 ![] bcast_S_S4x1x1x2048 main_cst_4
  let main_v16 : IVec S4x1x1x2048 1 := cmpf .olt main_v14 main_v15
  fn_part1 (F := F) main_v13 main_v16
-- ==== Kernel.lean ====
abbrev S4x16x2048x64 : Shape := ⟨4, ![4, 16, 2048, 64]⟩
abbrev S4x1x1x2048 : Shape := ⟨4, ![4, 1, 1, 2048]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x1x2048 : Shape := ⟨4, ![1, 1, 1, 2048]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x1x2048, .f32⟩
  | .hbm, ⟨4, _⟩ => ⟨S4x16x2048x64, .f32⟩
  | .hbm, ⟨5, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x1x2048_S1x1x1x2048_0_0_0_0 : ∀ a, (![0, 0, 0, 0] : Fin 4 → Nat) a + S1x1x1x2048.size a ≤ S1x1x1x2048.size a
  h_S1x1x1x2048 : 0 < S1x1x1x2048.numel
  shapeCasts_S1x1x1x2048_S1x2048 : S1x1x1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x2048.size a ≤ S4x1x1x2048.size a
  hwx0_3 : ∀ i : grid0.Coords, EltTy.bits .f32 = 32 ∨ (Rect.block (s := S4x1x1x2048) S1x1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x1x2048 : Shape := ⟨4, ![4, 1, 1, 2048]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x1x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x16x2048x2048, .f32⟩
  | .hbm, ⟨9, _⟩ => ⟨S4x16x2048x2048, .f32⟩
  | .hbm, ⟨10, _⟩ => ⟨S4x16x2048x2048, .f32⟩
  | .hbm, ⟨11, _⟩ => ⟨S4x16x2048x2048, .f32⟩
  | .hbm, ⟨12, _⟩ => ⟨S4x16x2048x2048, .f32⟩
  | .hbm, ⟨13, _⟩ => ⟨S_, .f32⟩
  | .hbm, ⟨14, _⟩ => ⟨S4x16x2048, .f32⟩
  | .hbm, ⟨15, _⟩ => ⟨S_, .f32⟩
  | .hbm, ⟨16, _⟩ => ⟨S4x16x2048, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Scaled dot-product attention with an additive key mask, one query row at a time, on the extended reals.

  For one (batch, head, query) the data are the query's row `qrow : Fin 64 → EReal`, the head's keys and values
  `Kf Vf : Fin 2048 → Fin 64 → EReal` and the batch's mask row `mrow : Fin 2048 → EReal`.  The row's scores are
  `(∑ d, qrow d · Kf k d) · c + mrow k` with `c` the value of the word `0x3E000000` (one eighth); its weights are the
  softmax of the scores, taken the numerically safe way — the row's maximum (a fold of `max` from `-∞`) is
  subtracted before the exponential and the exponentials are divided by their sum —; its context is the weights'
  combination of the value rows.  The two result arrays of the attention are these read at every
  (batch, head, query, ·).
-/
import Idealize.ShloMosaic.PureOps.Ideal
import Idealize.ShloMosaic.Lib.ValueIdx

noncomputable section

open scoped BigOperators

namespace Cert.Attn

open Idealize.ShloMosaic Idealize.ShloMosaic.ValueIdx

/-- The shape of the queries, keys, values and of the context result. -/
abbrev SQ : Shape := ⟨4, ![4, 16, 2048, 64]⟩
/-- The shape of the additive mask: one row of key positions per batch. -/
abbrev SM : Shape := ⟨4, ![4, 1, 1, 2048]⟩
/-- The shape of the attention weights. -/
abbrev SP : Shape := ⟨4, ![4, 16, 2048, 2048]⟩

/-- The scale both programs multiply the raw scores by: what the word `0x3E000000` denotes. -/
abbrev scale : EReal := Ideal.ofBits .f32 0x3E000000#32

/-- The value a maximum is folded from: what the word `0xFF800000` denotes. -/
abbrev negInf : EReal := Ideal.ofBits .f32 0xFF800000#32

/-- The safe softmax of a row of scores at position `k`. -/
def smax {n : Nat} (s : Fin n → EReal) (k : Fin n) : EReal :=
  Ideal.div (Ideal.exp (s k - (Finset.univ : Finset (Fin n)).fold max negInf s))
    (∑ k' : Fin n, Ideal.exp (s k' - (Finset.univ : Finset (Fin n)).fold max negInf s))

/-- One query row's scaled and masked scores. -/
def scoreRow (qrow : Fin 64 → EReal) (Kf : Fin 2048 → Fin 64 → EReal) (mrow : Fin 2048 → EReal) (k : Fin 2048) : EReal :=
  (∑ d : Fin 64, qrow d * Kf k d) * scale + mrow k

/-- One query row's attention weights. -/
def probsRow (qrow : Fin 64 → EReal) (Kf : Fin 2048 → Fin 64 → EReal) (mrow : Fin 2048 → EReal) : Fin 2048 → EReal :=
  smax (scoreRow qrow Kf mrow)

/-- A row of weights applied to the value rows. -/
def mixRow (w : Fin 2048 → EReal) (Vf : Fin 2048 → Fin 64 → EReal) (d : Fin 64) : EReal :=
  ∑ k : Fin 2048, w k * Vf k d

/-- Row `q` of head `h` of batch `b` of a [4, 16, 2048, 64] array. -/
abbrev rowOf (X : SQ.Idx → EReal) (b : Fin 4) (h : Fin 16) (q : Fin 2048) : Fin 64 → EReal :=
  fun d => X (ix4 b h q d)

/-- Head `h` of batch `b` of a [4, 16, 2048, 64] array, as rows. -/
abbrev headOf (X : SQ.Idx → EReal) (b : Fin 4) (h : Fin 16) : Fin 2048 → Fin 64 → EReal :=
  fun k d => X (ix4 b h k d)

/-- Batch `b`'s mask row. -/
abbrev maskOf (M : SM.Idx → EReal) (b : Fin 4) : Fin 2048 → EReal :=
  fun k => M (ix4 b 0 0 k)

/-- The attention weights, the whole array. -/
def weights (Q K : SQ.Idx → EReal) (M : SM.Idx → EReal) : SP.Idx → EReal :=
  fun i => probsRow (rowOf Q (i 0) (i 1) (i 2)) (headOf K (i 0) (i 1)) (maskOf M (i 0)) (i 3)

/-- The attention context, the whole array. -/
def context (Q K V : SQ.Idx → EReal) (M : SM.Idx → EReal) : SQ.Idx → EReal :=
  fun i => mixRow (probsRow (rowOf Q (i 0) (i 1) (i 2)) (headOf K (i 0) (i 1)) (maskOf M (i 0))) (headOf V (i 0) (i 1)) (i 3)

end Cert.Attn

end
-- ==== Proof.Consts.lean ====
/-
  The float words the two programs spell, as the extended reals they denote, and the one identity between them:
  the reference's scale `1 / √64` is the kernel's `0.125`.  The words are opened here and nowhere else.
-/
import Idealize.ShloMosaic.PureOps.Ideal

noncomputable section

namespace Cert.Attn.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = ((1 : ℝ) : EReal) := by
  simp [Ideal.ofBits, Ideal.ieee, -EReal.coe_mul]; norm_num

/-- `64.0` denotes `64`. -/
theorem ofBits_64 : Ideal.ofBits .f32 0x42800000#32 = ((64 : ℝ) : EReal) := by
  simp [Ideal.ofBits, Ideal.ieee, -EReal.coe_mul]; norm_num

/-- `0.125` denotes one eighth. -/
theorem ofBits_eighth : Ideal.ofBits .f32 0x3E000000#32 = ((1 / 8 : ℝ) : EReal) := by
  simp [Ideal.ofBits, Ideal.ieee, -EReal.coe_mul]; norm_num

/-- The square root of 64 is 8, so one over it is one eighth: the reference's computed scale is the kernel's literal. -/
theorem scale_eq :
    Ideal.div (Ideal.ofBits .f32 0x3F800000#32) (Ideal.sqrt (Ideal.ofBits .f32 0x42800000#32))
      = Ideal.ofBits .f32 0x3E000000#32 := by
  rw [ofBits_one, ofBits_64, ofBits_eighth, Ideal.sqrt_coe]
  have h8 : Real.sqrt 64 = 8 := by
    rw [show (64 : ℝ) = 8 ^ 2 by norm_num]; exact Real.sqrt_sq (by norm_num)
  rw [if_neg (by norm_num), h8]
  unfold Ideal.div
  have hne : ((8 : ℝ) : EReal) ≠ 0 := by
    intro h; have := EReal.coe_eq_zero.mp h; norm_num at this
  rw [if_neg hne, ← EReal.coe_inv, ← EReal.coe_mul]
  norm_num

end Cert.Attn.Consts

end
-- ==== Proof.RefSide.lean ====
/-
  The reference attention, read one element at a time, is the specification.

  The reference computes, for queries Q, keys K, values V of shape [4, 16, 2048, 64] and a mask of shape
  [4, 1, 1, 2048]: the scores  s(b,h,q,k) = (∑ d, Q(b,h,q,d) · K(b,h,k,d)) · (1 / √64) + mask(b,0,0,k);  the row
  maximum  m(b,h,q) = max (-∞) (fold of max from -∞ over k of s(b,h,q,k));  the exponentials  e = exp (s - m);  their
  row sums  0 + ∑ k, e(b,h,q,k);  the weights  e / (row sum);  and the context  ∑ k, weights(b,h,q,k) · V(b,h,k,d).

  The specification says the same with three spellings changed, and each change is an identity of extended reals that
  needs no finiteness of the data:
    * the scale 1 / √64 is the number one eighth that the specification multiplies by;
    * taking the maximum of -∞ with a fold of max that already starts from -∞ changes nothing, since a fold of max
      is at least the value it starts from;
    * adding the sum to a starting value of zero changes nothing.
  Everything else is bookkeeping of indices: each layout operation of the reference (a broadcast along new or unit
  axes, the two contractions, the two reductions over the last axis) reads its operand at an index whose coordinates
  are named coordinates (batch b, head h, query q, key k, feature d) of the result's index.  The sums over the 2048 key
  positions and the 64 features are never expanded: they are carried as sums over a finite index type.
-/
import proofs.«158806_j16381005267233_2_alg».proof.Proof.Spec
import proofs.«158806_j16381005267233_2_alg».proof.Proof.Consts
import proofs.«158806_j16381005267233_2_alg».proof.Proof.Gen.ReferenceIdeal.Read
import Idealize.ShloMosaic.PureOps.Reduce
import Idealize.ShloMosaic.PureOps.Ideal.Laws
import Idealize.ShloMosaic.Lib.ValueIdx

noncomputable section

open scoped BigOperators

namespace Cert.Attn.Ref

open Idealize.ShloMosaic Idealize.ShloMosaic.ValueIdx Cert.ReferenceIdeal Cert.ReferenceIdeal.Read Cert.ReferenceIdeal.Gen

/-! ## Where each layout operation reads its operand

Each equation says: at the result index with coordinates (b, h, q, k) or (b, h, q, d), the operand is read at the index
with the stated coordinates.  Both sides are functions on the four (or three) axes, compared axis by axis. -/

/-- The score contraction reads the query row (b, h, q) at feature d … -/
theorem lidx_v2 (b : Fin 4) (h : Fin 16) (q k : Fin 2048) (d : Fin 64) :
    lidx_main_v2 (ix4 b h q k) d = ix4 b h q d :=
  funext fun a => Fin.ext (by match a with | ⟨0, _⟩ => rfl | ⟨1, _⟩ => rfl | ⟨2, _⟩ => rfl | ⟨3, _⟩ => rfl)

/-- … against the key row (b, h, k) at feature d. -/
theorem ridx_v2 (b : Fin 4) (h : Fin 16) (q k : Fin 2048) (d : Fin 64) :
    ridx_main_v2 (ix4 b h q k) d = ix4 b h k d :=
  funext fun a => Fin.ext (by match a with | ⟨0, _⟩ => rfl | ⟨1, _⟩ => rfl | ⟨2, _⟩ => rfl | ⟨3, _⟩ => rfl)

/-- The mask, constant along heads and queries, is read at (b, 0, 0, k). -/
theorem idx_v5 (b : Fin 4) (h : Fin 16) (q k : Fin 2048) :
    idx_main_v5 (ix4 b h q k) = ix4 b 0 0 k :=
  funext fun a => Fin.ext (by match a with | ⟨0, _⟩ => rfl | ⟨1, _⟩ => rfl | ⟨2, _⟩ => rfl | ⟨3, _⟩ => rfl)

/-- The row maximum, spread back along the key axis in two steps, is read at its row (b, h, q). -/
theorem idx_v10_v11 (b : Fin 4) (h : Fin 16) (q k : Fin 2048) :
    idx_main_v10 (idx_main_v11 (ix4 b h q k)) = ix3 b h q :=
  funext fun a => Fin.ext (by match a with | ⟨0, _⟩ => rfl | ⟨1, _⟩ => rfl | ⟨2, _⟩ => rfl)

/-- The row sum at (b, h, q) reads the exponentials at (b, h, q, k), k the summed key position. -/
theorem idx_v14 (b : Fin 4) (h : Fin 16) (q k : Fin 2048) :
    idx_main_v14 (ix3 b h q) k = ix4 b h q k :=
  funext fun a => Fin.ext (by match a with | ⟨0, _⟩ => rfl | ⟨1, _⟩ => rfl | ⟨2, _⟩ => rfl | ⟨3, _⟩ => rfl)

/-- The row sum, spread back along the key axis in two steps, is read at its row (b, h, q). -/
theorem idx_v15_v16 (b : Fin 4) (h : Fin 16) (q k : Fin 2048) :
    idx_main_v15 (idx_main_v16 (ix4 b h q k)) = ix3 b h q :=
  funext fun a => Fin.ext (by match a with | ⟨0, _⟩ => rfl | ⟨1, _⟩ => rfl | ⟨2, _⟩ => rfl)

/-- The context contraction reads the weights of row (b, h, q) at key position k … -/
theorem lidx_v18 (b : Fin 4) (h : Fin 16) (q : Fin 2048) (d : Fin 64) (k : Fin 2048) :
    lidx_main_v18 (ix4 b h q d) k = ix4 b h q k :=
  funext fun a => Fin.ext (by match a with | ⟨0, _⟩ => rfl | ⟨1, _⟩ => rfl | ⟨2, _⟩ => rfl | ⟨3, _⟩ => rfl)

/-- … against the value row (b, h, k) at feature d. -/
theorem ridx_v18 (b : Fin 4) (h : Fin 16) (q : Fin 2048) (d : Fin 64) (k : Fin 2048) :
    ridx_main_v18 (ix4 b h q d) k = ix4 b h k d :=
  funext fun a => Fin.ext (by match a with | ⟨0, _⟩ => rfl | ⟨1, _⟩ => rfl | ⟨2, _⟩ => rfl | ⟨3, _⟩ => rfl)

/-! ## The scores -/

/-- The reference's scores at (b, h, q, k) are the specification's row of scores at k: the contraction over the 64
    features of the query row with the key row, times the scale, plus the mask.  The reference's scale is the quotient
    of one by the square root of sixty-four, which is one eighth. -/
theorem scores_at (x0 x1 : (⟨S4x16x2048x64, .f32⟩ : BufTy).Contents (Elt Ideal))
    (x3 : (⟨S4x1x1x2048, .f32⟩ : BufTy).Contents (Elt Ideal)) (b : Fin 4) (h : Fin 16) (q k : Fin 2048) :
    val_main_v6 (F := Ideal) x0 x1 x3 (ix4 b h q k)
      = scoreRow (rowOf x0 b h q) (headOf x1 b h) (maskOf x3 b) k := by
  rw [val_main_v6_apply, val_main_v4_apply, val_main_v2_apply, val_main_v3_apply, val_main_v1_apply,
    val_main_cst_0_apply, val_main_v0_apply, val_main_cst_apply, val_main_v5_apply]
  simp only [lidx_v2, ridx_v2, idx_v5, Ideal.addf_def, Ideal.mulf_def, Ideal.hostDivf_def,
    Ideal.hostUnary_sqrt_def, Ideal.ofBits_def, Consts.scale_eq]
  rfl

/-! ## The row maximum -/

/-- Removing the last axis of [4, 16, 2048, 2048] leaves [4, 16, 2048]. -/
theorem red3 : S4x16x2048x2048.Reduces [3] S4x16x2048 := by decide

/-- The index over row (b, h, q) with key position k inserted on the removed axis is (b, h, q, k). -/
theorem lift_red3 (b : Fin 4) (h : Fin 16) (q k : Fin 2048) :
    red3.lift (ix3 b h q) k = ix4 b h q k :=
  funext fun a => Fin.ext (by match a with | ⟨0, _⟩ => rfl | ⟨1, _⟩ => rfl | ⟨2, _⟩ => rfl | ⟨3, _⟩ => rfl)

/-- The reduction of the scores over the key axis by maximum, started from -∞, is at row (b, h, q) the fold of max
    from -∞ over the key positions of that row's scores: max commutes and associates, so the order in which the
    reduction visits the row does not matter. -/
theorem rowMax_at (x0 x1 : (⟨S4x16x2048x64, .f32⟩ : BufTy).Contents (Elt Ideal))
    (x3 : (⟨S4x1x1x2048, .f32⟩ : BufTy).Contents (Elt Ideal)) (b : Fin 4) (h : Fin 16) (q : Fin 2048) :
    val_main_v7 (F := Ideal) x0 x1 x3 (ix3 b h q)
      = (Finset.univ : Finset (Fin 2048)).fold max negInf
          (fun k => val_main_v6 (F := Ideal) x0 x1 x3 (ix4 b h q k)) := by
  have key := Host.reduce_eq_fold_single (s := S4x16x2048x2048) (t := S4x16x2048) (u := S_) (a := (3 : Fin 4))
    (FloatOps.maximumf (F := Ideal) (φ := .f32)) (val_main_v6 (F := Ideal) x0 x1 x3) (val_main_cst_1 (F := Ideal))
    reducesTo_S4x16x2048x2048_S4x16x2048_d3 red3 h_S_ (ix3 b h q)
  unfold val_main_v7
  rw [key]
  show (Finset.univ : Finset (Fin 2048)).fold max negInf
      ((val_main_v6 (F := Ideal) x0 x1 x3) ∘ red3.lift (ix3 b h q)) = _
  exact Finset.fold_congr (fun k _ => congrArg (val_main_v6 (F := Ideal) x0 x1 x3) (lift_red3 b h q k))

/-- The reference then takes the maximum of -∞ with that fold.  A fold of max is at least the value it starts from,
    here -∞ itself, so the outer maximum is the fold: no property of -∞ beyond being the starting value is used. -/
theorem rowMaxGuarded_at (x0 x1 : (⟨S4x16x2048x64, .f32⟩ : BufTy).Contents (Elt Ideal))
    (x3 : (⟨S4x1x1x2048, .f32⟩ : BufTy).Contents (Elt Ideal)) (b : Fin 4) (h : Fin 16) (q : Fin 2048) :
    val_main_v9 (F := Ideal) x0 x1 x3 (ix3 b h q)
      = (Finset.univ : Finset (Fin 2048)).fold max negInf
          (fun k => val_main_v6 (F := Ideal) x0 x1 x3 (ix4 b h q k)) := by
  rw [val_main_v9_apply, val_main_v8_apply, val_main_cst_2_apply, rowMax_at]
  simp only [Ideal.maximumf_def, Ideal.ofBits_def]
  exact max_eq_right ((Finset.le_fold_max _).mpr (Or.inl le_rfl))

/-! ## The exponentials, their row sums, the weights -/

/-- The exponential at (b, h, q, k): of the score there minus the maximum of its row. -/
theorem exps_at (x0 x1 : (⟨S4x16x2048x64, .f32⟩ : BufTy).Contents (Elt Ideal))
    (x3 : (⟨S4x1x1x2048, .f32⟩ : BufTy).Contents (Elt Ideal)) (b : Fin 4) (h : Fin 16) (q k : Fin 2048) :
    val_main_v13 (F := Ideal) x0 x1 x3 (ix4 b h q k)
      = Ideal.exp (val_main_v6 (F := Ideal) x0 x1 x3 (ix4 b h q k)
          - (Finset.univ : Finset (Fin 2048)).fold max negInf
              (fun k' => val_main_v6 (F := Ideal) x0 x1 x3 (ix4 b h q k'))) := by
  rw [val_main_v13_apply, val_main_v12_apply, val_main_v11_apply, val_main_v10_apply, idx_v10_v11, rowMaxGuarded_at]
  simp only [Ideal.hostUnary_exp_def, Ideal.subf_def]

/-- The row sum at (b, h, q): the reference adds the sum over the key positions to a starting value of zero, which is
    the sum itself. -/
theorem rowSum_at (x0 x1 : (⟨S4x16x2048x64, .f32⟩ : BufTy).Contents (Elt Ideal))
    (x3 : (⟨S4x1x1x2048, .f32⟩ : BufTy).Contents (Elt Ideal)) (b : Fin 4) (h : Fin 16) (q : Fin 2048) :
    val_main_v14 (F := Ideal) x0 x1 x3 (ix3 b h q)
      = ∑ k : Fin 2048, Ideal.exp (val_main_v6 (F := Ideal) x0 x1 x3 (ix4 b h q k)
          - (Finset.univ : Finset (Fin 2048)).fold max negInf
              (fun k' => val_main_v6 (F := Ideal) x0 x1 x3 (ix4 b h q k'))) := by
  rw [val_main_v14_apply, val_main_cst_3_apply]
  simp only [idx_v14, exps_at, Ideal.ofBits_def, Consts.ofBits_zero, zero_add]

/-- The weights at (b, h, q, k): the exponential there over its row's sum, which is the safe softmax of the row's scores
    at k — the specification's weights of the row. -/
theorem weights_at (x0 x1 : (⟨S4x16x2048x64, .f32⟩ : BufTy).Contents (Elt Ideal))
    (x3 : (⟨S4x1x1x2048, .f32⟩ : BufTy).Contents (Elt Ideal)) (b : Fin 4) (h : Fin 16) (q k : Fin 2048) :
    val_main_v17 (F := Ideal) x0 x1 x3 (ix4 b h q k)
      = probsRow (rowOf x0 b h q) (headOf x1 b h) (maskOf x3 b) k := by
  rw [val_main_v17_apply, val_main_v16_apply, val_main_v15_apply, idx_v15_v16, rowSum_at, exps_at]
  simp only [Ideal.hostDivf_def, scores_at]
  rfl

/-! ## The context -/

/-- The context at (b, h, q, d): the row's weights combined with feature d of the value rows of head (b, h). -/
theorem context_at (x0 x1 x2 : (⟨S4x16x2048x64, .f32⟩ : BufTy).Contents (Elt Ideal))
    (x3 : (⟨S4x1x1x2048, .f32⟩ : BufTy).Contents (Elt Ideal)) (b : Fin 4) (h : Fin 16) (q : Fin 2048) (d : Fin 64) :
    val_main_v18 (F := Ideal) x0 x1 x2 x3 (ix4 b h q d)
      = mixRow (probsRow (rowOf x0 b h q) (headOf x1 b h) (maskOf x3 b)) (headOf x2 b h) d := by
  rw [val_main_v18_apply]
  simp only [lidx_v18, ridx_v18, weights_at]
  rfl

/-! ## The two results, as whole arrays

Every index of a rank-4 array is the index of its four coordinates, so the elementwise statements above give the
equalities of arrays. -/

/-- The reference's weights are the specification's. -/
theorem ref_weights (x0 x1 : (⟨Cert.ReferenceIdeal.S4x16x2048x64, .f32⟩ : BufTy).Contents (Elt Ideal)) (x3 : (⟨Cert.ReferenceIdeal.S4x1x1x2048, .f32⟩ : BufTy).Contents (Elt Ideal)) :
    Cert.ReferenceIdeal.Read.val_main_v17 (F := Ideal) x0 x1 x3 = Cert.Attn.weights x0 x1 x3 := by
  funext i
  obtain ⟨b, h, q, k, rfl⟩ : ∃ (b : Fin 4) (h : Fin 16) (q k : Fin 2048), i = ix4 b h q k :=
    ⟨i 0, i 1, i 2, i 3, eq_ix4 i⟩
  exact weights_at x0 x1 x3 b h q k

/-- The reference's context is the specification's. -/
theorem ref_context (x0 x1 x2 : (⟨Cert.ReferenceIdeal.S4x16x2048x64, .f32⟩ : BufTy).Contents (Elt Ideal)) (x3 : (⟨Cert.ReferenceIdeal.S4x1x1x2048, .f32⟩ : BufTy).Contents (Elt Ideal)) :
    Cert.ReferenceIdeal.Read.val_main_v18 (F := Ideal) x0 x1 x2 x3 = Cert.Attn.context x0 x1 x2 x3 := by
  funext i
  obtain ⟨b, h, q, d, rfl⟩ : ∃ (b : Fin 4) (h : Fin 16) (q : Fin 2048) (d : Fin 64), i = ix4 b h q d :=
    ⟨i 0, i 1, i 2, i 3, eq_ix4 i⟩
  exact context_at x0 x1 x2 x3 b h q d

end Cert.Attn.Ref

end
-- ==== Proof.Payload.lean ====
/-
  The arithmetic of one grid point's body, read entry by entry.

  The body works on a tile of 512 query rows against all 2048 key positions of one head.  Its first value is the
  tile of scores: entry (p, k) is the inner product over the 64 features of query row p with key row k, times the
  scale, plus the mask at k.  Each row of the tile is then normalised the numerically safe way: the row's maximum
  (a fold of max from -∞ over the 2048 positions) is subtracted, the exponential is taken, and each exponential is
  divided by the sum of its row's exponentials.  That is the safe softmax of the row of scores, so entry (p, k) of
  the weights tile is the specification's weight of query row p at key k.  The second value multiplies a tile of
  weights with the head's 2048 value rows: entry (p, d) is the sum over k of weight (p, k) times value (k, d), the
  specification's mixture of the value rows.

  Everything else in the body is bookkeeping that moves no number: unit axes added and dropped, a change of float
  format that is the identity on extended reals, one row or one column repeated across a tile.  The lemmas below
  read each such step at an index, read a lane reduction as a fold or a sum over the 2048 positions of the row,
  and read a matrix product into a zero accumulator as a sum over its one contracted axis.
-/
import proofs.«158806_j16381005267233_2_alg».proof.Proof.Spec
import proofs.«158806_j16381005267233_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws

noncomputable section

open scoped BigOperators

namespace Cert.Attn.Body

open Cert.KernelIdeal Cert.KernelIdeal.Gen Idealize.ShloMosaic Idealize.ShloMosaic.ValueIdx Cert.Attn

/-! ## Unit axes and repeated rows or columns, read at an index -/

section Layout
variable {α : Type}

/-- A `[1, 1, a, b]` array viewed as `[a, b]` reads, at `(i, j)`, the entry `(0, 0, i, j)`: both have row-major
    position `i * b + j`. -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array viewed as `[1, 1, a, b]` reads, at `(u, v, i, j)`, the entry `(i, j)`, the two unit
    coordinates being zero. -/
theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector `[a]` viewed as the column `[a, 1]` reads, at `(i, u)`, the entry `i`. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` lanes reads, at `(i, j)`, the column's entry `i`. -/
theorem bcast_a1_ab {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A per-row quantity `[a]`, made a column and repeated across the lanes, reads at `(i, j)` the quantity of row `i`. -/
theorem keepdims_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) :=
  (bcast_a1_ab _ hb i j).trans (cast_a_a1 x hc i 0)

end Layout

/-! ## The two lane reductions of a tile, read at a row -/

/-- The index of a `[512, 2048]` tile that lies over row `p` of the reduced vector at lane `k` is `(p, k)`. -/
theorem lift_row (h : S512x2048.Reduces [1] S512) (p : Fin 512) (k : Fin 2048) : h.lift (ix1 p) k = ix2 p k :=
  funext fun a => Fin.ext (by
    match a with
    | ⟨0, _⟩ => rfl
    | ⟨1, _⟩ => rfl)

/-- The maximum over the lanes, taken from the word of `-∞`, is at row `p` the fold of `max` from `-∞` over the
    2048 entries of that row. -/
theorem rowMax_apply (s : FVec Ideal S512x2048 .f32) (h : S512x2048.Reduces [1] S512) (hφ : FKind.Formats .f32)
    (hacc : (0xFF800000#32 : BitVec 32) = FKind.maximumf.neutral .f32 hφ) (p : Fin 512) :
    multiReduction (F := Ideal) .maximumf [1] S512 s 0xFF800000#32 h hφ hacc (ix1 p)
      = (Finset.univ : Finset (Fin 2048)).fold max negInf (fun k => s (ix2 p k)) :=
  (Ideal.multiReduction_maximumf_single s 0xFF800000#32 h hφ hacc (ix1 p)).trans
    (congrArg (fun f : Fin 2048 → EReal => (Finset.univ : Finset (Fin 2048)).fold max negInf f)
      (funext fun k => congrArg s (lift_row h p k)))

/-- The sum over the lanes, taken from the zero word, is at row `p` the sum of the 2048 entries of that row. -/
theorem rowSum_apply (e : FVec Ideal S512x2048 .f32) (h : S512x2048.Reduces [1] S512) (hφ : FKind.Formats .f32)
    (hacc : (0x00000000#32 : BitVec 32) = FKind.add.neutral .f32 hφ) (p : Fin 512) :
    multiReduction (F := Ideal) .add [1] S512 e 0x00000000#32 h hφ hacc (ix1 p) = ∑ k : Fin 2048, e (ix2 p k) :=
  (Ideal.multiReduction_add_single e 0x00000000#32 h hφ hacc (ix1 p)).trans
    (Finset.sum_congr rfl fun k _ => congrArg e (lift_row h p k))

/-! ## The two matrix products into a zero accumulator, read at an entry -/

/-- The dimension numbers of the product of the query tile with the keys: both operands contracted along their
    second axis, the 64 features. -/
abbrev qkDims : DotDims S512x64 S2048x64 S512x2048 := dot_S512x64_S2048x64_S512x2048_1_1_0_0_n_n

/-- The dimension numbers of the product of the weights tile with the values: the tile's second axis contracted with
    the values' first, the 2048 key positions. -/
abbrev pvDims : DotDims S512x2048 S2048x64 S512x64 := dot_S512x2048_S2048x64_S512x64_1_0_0_1_n_n

/-- In the first product the left operand is read on its kept axis at the result's row … -/
theorem qk_lhs_row (i : S512x2048.Idx) (q : qkDims.contr.Idx) : (qkDims.lhsIdx i q 0).val = (i 0).val := by
  unfold DotDims.lhsIdx
  rw [dif_neg (show ¬(0 : Fin S512x64.rank) ∈ qkDims.lhsBatch by decide),
    dif_pos (show (0 : Fin S512x64.rank) ∈ qkDims.lhsNonContracting by decide)]
  rfl
/-- … and the right operand on its kept axis at the result's column. -/
theorem qk_rhs_row (i : S512x2048.Idx) (q : qkDims.contr.Idx) : (qkDims.rhsIdx i q 0).val = (i 1).val := by
  unfold DotDims.rhsIdx
  rw [dif_neg (show ¬(0 : Fin S2048x64.rank) ∈ qkDims.rhsBatch by decide),
    dif_pos (show (0 : Fin S2048x64.rank) ∈ qkDims.rhsNonContracting by decide)]
  rfl

/-- Query tile times keys, both contracted along their 64 features: entry `(p, k)` is the inner product of query row
    `p` with key row `k`. -/
theorem scoresDot_apply (l : FVec Ideal S512x64 .bf16) (r : FVec Ideal S2048x64 .bf16) (p : Fin 512) (k : Fin 2048) :
    matmul (F := Ideal) qkDims none l r (constant S512x2048 .f32 0x00000000#32) (ix2 p k)
      = ∑ d : Fin 64, l (ix2 p d) * r (ix2 k d) := by
  refine (Ideal.matmul_constant_zero_apply qkDims none l r (ix2 p k)).trans ?_
  rw [← Equiv.sum_comp (contrEquiv1 qkDims 64 rfl rfl).symm]
  refine Finset.sum_congr rfl fun d _ => ?_
  have hd := contrEquiv1_symm_val qkDims 64 rfl rfl d
  have el : qkDims.lhsIdx (ix2 p k) ((contrEquiv1 qkDims 64 rfl rfl).symm d) = ix2 p d :=
    funext fun a => Fin.ext (by
      match a with
      | ⟨0, _⟩ => exact qk_lhs_row _ _
      | ⟨1, _⟩ => exact (qkDims.lhsIdx_val_of_single rfl _ _).trans hd)
  have er : qkDims.rhsIdx (ix2 p k) ((contrEquiv1 qkDims 64 rfl rfl).symm d) = ix2 k d :=
    funext fun a => Fin.ext (by
      match a with
      | ⟨0, _⟩ => exact qk_rhs_row _ _
      | ⟨1, _⟩ => exact (qkDims.rhsIdx_val_of_single rfl _ _).trans hd)
  rw [el, er]

/-- In the second product the left operand is read on its kept axis at the result's row … -/
theorem pv_lhs_row (i : S512x64.Idx) (q : pvDims.contr.Idx) : (pvDims.lhsIdx i q 0).val = (i 0).val := by
  unfold DotDims.lhsIdx
  rw [dif_neg (show ¬(0 : Fin S512x2048.rank) ∈ pvDims.lhsBatch by decide),
    dif_pos (show (0 : Fin S512x2048.rank) ∈ pvDims.lhsNonContracting by decide)]
  rfl
/-- … and the right operand on its kept axis at the result's column. -/
theorem pv_rhs_col (i : S512x64.Idx) (q : pvDims.contr.Idx) : (pvDims.rhsIdx i q 1).val = (i 1).val := by
  unfold DotDims.rhsIdx
  rw [dif_neg (show ¬(1 : Fin S2048x64.rank) ∈ pvDims.rhsBatch by decide),
    dif_pos (show (1 : Fin S2048x64.rank) ∈ pvDims.rhsNonContracting by decide)]
  rfl

/-- Weights tile times values, the tile's 2048 lanes contracted with the values' 2048 rows: entry `(p, d)` is the sum
    over `k` of weight `(p, k)` times value `(k, d)`. -/
theorem contextDot_apply (l : FVec Ideal S512x2048 .bf16) (r : FVec Ideal S2048x64 .bf16) (p : Fin 512) (d : Fin 64) :
    matmul (F := Ideal) pvDims none l r (constant S512x64 .f32 0x00000000#32) (ix2 p d)
      = ∑ k : Fin 2048, l (ix2 p k) * r (ix2 k d) := by
  refine (Ideal.matmul_constant_zero_apply pvDims none l r (ix2 p d)).trans ?_
  rw [← Equiv.sum_comp (contrEquiv1 pvDims 2048 rfl rfl).symm]
  refine Finset.sum_congr rfl fun k _ => ?_
  have hk := contrEquiv1_symm_val pvDims 2048 rfl rfl k
  have el : pvDims.lhsIdx (ix2 p d) ((contrEquiv1 pvDims 2048 rfl rfl).symm k) = ix2 p k :=
    funext fun a => Fin.ext (by
      match a with
      | ⟨0, _⟩ => exact pv_lhs_row _ _
      | ⟨1, _⟩ => exact (pvDims.lhsIdx_val_of_single rfl _ _).trans hk)
  have er : pvDims.rhsIdx (ix2 p d) ((contrEquiv1 pvDims 2048 rfl rfl).symm k) = ix2 k d :=
    funext fun a => Fin.ext (by
      match a with
      | ⟨0, _⟩ => exact (pvDims.rhsIdx_val_of_single rfl _ _).trans hk
      | ⟨1, _⟩ => exact pv_rhs_col _ _)
  rw [el, er]

/-! ## The safe softmax of a tile's rows -/

/-- A tile with each row's maximum subtracted, then exponentiated: the maximum is taken over the lanes from `-∞`, made a
    column and repeated across the lanes. -/
abbrev shiftedExp (s : FVec Ideal S512x2048 .f32) (hr : S512x2048.Reduces [1] S512) (hφ : FKind.Formats .f32)
    (hmax : (0xFF800000#32 : BitVec 32) = FKind.maximumf.neutral .f32 hφ) (hc : S512.ShapeCasts S512x1)
    (hb : S512x1.Broadcasts S512x2048) : FVec Ideal S512x2048 .f32 :=
  exp (subf s (broadcastTo S512x2048
    (shapeCast S512x1 (multiReduction (F := Ideal) .maximumf [1] S512 s 0xFF800000#32 hr hφ hmax) hc) hb))

/-- Its entry `(p, k)` is the exponential of the entry minus the fold of `max` from `-∞` over row `p`. -/
theorem shiftedExp_apply (s : FVec Ideal S512x2048 .f32) (hr : S512x2048.Reduces [1] S512) (hφ : FKind.Formats .f32)
    (hmax : (0xFF800000#32 : BitVec 32) = FKind.maximumf.neutral .f32 hφ) (hc : S512.ShapeCasts S512x1)
    (hb : S512x1.Broadcasts S512x2048) (p : Fin 512) (k : Fin 2048) :
    shiftedExp s hr hφ hmax hc hb (ix2 p k)
      = Ideal.exp (s (ix2 p k) - (Finset.univ : Finset (Fin 2048)).fold max negInf (fun k' => s (ix2 p k'))) :=
  congrArg (fun m : EReal => Ideal.exp (s (ix2 p k) - m))
    ((keepdims_apply _ hc hb p k).trans (rowMax_apply s hr hφ hmax p))

/-- A tile divided by its rows' sums — the sum taken over the lanes from zero, made a column and repeated across the
    lanes — has at `(p, k)` the entry over the sum of row `p`. -/
theorem normalised_apply (e : FVec Ideal S512x2048 .f32) (hr : S512x2048.Reduces [1] S512) (hφ : FKind.Formats .f32)
    (hadd : (0x00000000#32 : BitVec 32) = FKind.add.neutral .f32 hφ) (hc : S512.ShapeCasts S512x1)
    (hb : S512x1.Broadcasts S512x2048) (p : Fin 512) (k : Fin 2048) :
    divf e (broadcastTo S512x2048
        (shapeCast S512x1 (multiReduction (F := Ideal) .add [1] S512 e 0x00000000#32 hr hφ hadd) hc) hb) (ix2 p k)
      = Ideal.div (e (ix2 p k)) (∑ k' : Fin 2048, e (ix2 p k')) :=
  congrArg (Ideal.div (e (ix2 p k))) ((keepdims_apply _ hc hb p k).trans (rowSum_apply e hr hφ hadd p))

/-- The two together: subtract the row's maximum, exponentiate, divide by the row's sum. At `(p, k)` that is the safe
    softmax of row `p` of the tile, at position `k`. -/
theorem softmaxTile_apply (s : FVec Ideal S512x2048 .f32) (hr : S512x2048.Reduces [1] S512) (hφ : FKind.Formats .f32)
    (hmax : (0xFF800000#32 : BitVec 32) = FKind.maximumf.neutral .f32 hφ)
    (hadd : (0x00000000#32 : BitVec 32) = FKind.add.neutral .f32 hφ) (hc : S512.ShapeCasts S512x1)
    (hb : S512x1.Broadcasts S512x2048) (p : Fin 512) (k : Fin 2048) :
    divf (shiftedExp s hr hφ hmax hc hb) (broadcastTo S512x2048
        (shapeCast S512x1
          (multiReduction (F := Ideal) .add [1] S512 (shiftedExp s hr hφ hmax hc hb) 0x00000000#32 hr hφ hadd) hc) hb)
        (ix2 p k)
      = smax (fun k' => s (ix2 p k')) k :=
  (normalised_apply (shiftedExp s hr hφ hmax hc hb) hr hφ hadd hc hb p k).trans
    (congrArg₂ Ideal.div (shiftedExp_apply s hr hφ hmax hc hb p k)
      (Finset.sum_congr rfl fun k' _ => shiftedExp_apply s hr hφ hmax hc hb p k'))

/-! ## The scores tile -/

/-- The tile of scores at `(p, k)`: the query tile and the keys lose their unit axes and change format (no number moves),
    their product into zero is the inner product of query row `p` with key row `k`, the scale multiplies it, and the
    mask row, repeated over the 512 query rows, adds the mask at `k`. -/
theorem scoreTile_apply (v0 : Vec Ideal S1x1x512x64 .f32) (v3 : Vec Ideal S1x1x2048x64 .f32)
    (v9 : Vec Ideal S1x1x1x2048 .f32) (hq : S1x1x512x64.ShapeCasts S512x64) (hk : S1x1x2048x64.ShapeCasts S2048x64)
    (hm : S1x1x1x2048.ShapeCasts S1x2048) (hb : S1x2048.Broadcasts S512x2048) (hlt : FTy.bits .bf16 < FTy.bits .f32)
    (p : Fin 512) (k : Fin 2048) :
    addf
        (mulf
          (matmul (F := Ideal) qkDims none (truncf .bf16 (shapeCast S512x64 v0 hq) hlt)
            (truncf .bf16 (shapeCast S2048x64 v3 hk) hlt) (constant S512x2048 .f32 0x00000000#32))
          (broadcast S512x2048 (Scalar.ofBits (F := Ideal) .f32 0x3E000000#32)))
        (broadcastTo S512x2048 (shapeCast S1x2048 v9 hm) hb) (ix2 p k)
      = scoreRow (fun d => v0 (ix4 0 0 p d)) (fun k' d => v3 (ix4 0 0 k' d)) (fun k' => v9 (ix4 0 0 0 k')) k :=
  congrArg₂ (fun x y : EReal => x * scale + y)
    ((scoresDot_apply _ _ p k).trans
      (Finset.sum_congr rfl fun d _ => congrArg₂ (fun x y : EReal => x * y) (cast_11ab_ab v0 hq p d) (cast_11ab_ab v3 hk k d)))
    ((broadcastTo_1b_ab_apply _ hb p k).trans (cast_11ab_ab v9 hm 0 k))

/-! ## The two stored values at an entry -/

/-- The weights the body stores: entry `(0, 0, p, k)` of the stored block is the specification's weight of query row `p`
    of the loaded query tile at key `k`, over the loaded keys and mask row. -/
theorem weights_block (v0 : Vec Ideal S1x1x512x64 .f32) (v3 : Vec Ideal S1x1x2048x64 .f32) (v9 : Vec Ideal S1x1x1x2048 .f32) (p : Fin 512) (k : Fin 2048) :
    k0_pay2 (F := Ideal) v0 v3 v9 (ix4 0 0 p k)
      = probsRow (fun d => v0 (ix4 0 0 p d)) (fun k' d => v3 (ix4 0 0 k' d)) (fun k' => v9 (ix4 0 0 0 k')) k := by
  unfold k0_pay2
  refine (cast_ab_11ab _ _ 0 0 p k).trans ?_
  refine (softmaxTile_apply _ _ _ _ _ _ _ p k).trans ?_
  exact congrArg (fun s : Fin 2048 → EReal => smax s k)
    (funext fun k' => scoreTile_apply v0 v3 v9 _ _ _ _ _ p k')

/-- The context the body stores: entry `(0, 0, p, d)` of the stored block is the specification's mixture, with row `p` of
    the loaded weights tile, of the loaded value rows at feature `d`. -/
theorem context_block (v25 : Vec Ideal S1x1x2048x64 .f32) (v28 : Vec Ideal S1x1x512x2048 .f32) (p : Fin 512) (d : Fin 64) :
    k0_pay1 (F := Ideal) (k0_pay3 (F := Ideal) v25) v28 (ix4 0 0 p d)
      = mixRow (fun k => v28 (ix4 0 0 p k)) (fun k d' => v25 (ix4 0 0 k d')) d := by
  unfold k0_pay1 k0_pay3
  refine (cast_ab_11ab _ _ 0 0 p d).trans ?_
  refine (contextDot_apply _ _ p d).trans ?_
  exact Finset.sum_congr rfl fun k _ =>
    congrArg₂ (fun x y : EReal => x * y) (cast_11ab_ab v28 _ p k) (cast_11ab_ab v25 _ k d)

end Cert.Attn.Body

end
-- ==== Proof.Pieces.lean ====
/-
  What one grid point's body leaves in its two output blocks, as values of the blocks it loaded.

  The body stores the attention weights of its 512 query rows — a function of the query tile, the head's keys and
  the batch's mask row — into the weights block, loads that block back, and stores the product of what it loaded
  with the head's values into the context block.  Each output block is covered by that one store, so what the
  block holds afterwards is the store's payload; and the load in between reads exactly what the first store wrote,
  so the context block is the payload of the second store applied to the payload of the first.
-/
import proofs.«158806_j16381005267233_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.Attn.Kern

open Cert.KernelIdeal Cert.KernelIdeal.Gen

variable {F : FTy → Type} [FloatOps F]

/-- Every access of the body starts at the origin of its block. -/
theorem hz4 : (![0, 0, 0, 0] : Fin 4 → Nat) = fun _ => 0 := funext fun a => by fin_cases a <;> rfl

/-- The weights block after the body: the softmax payload of the query tile `x0`, the keys `x1` and the mask row `x3`
    (one store covers the block, and its loads read whole buffers). -/
theorem out5_eq (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x1x2048 .f32) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .f32) (x1 : Vec F S1x1x2048x64 .f32) (x2 : Vec F S1x1x2048x64 .f32) (x3 : Vec F S1x1x1x2048 .f32) :
    out0_A_5 c i arg3 harg3 arg4 harg4 arg5 harg5 arg6 harg6 arg7 harg7 arg8 harg8 x0 x1 x2 x3 = k0_pay2 x0 x1 x3 := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg6.read_unread,
    View.ld_unit_zero (S := S1x1x512x64) hz4, View.ld_unit_zero (S := S1x1x2048x64) hz4, View.ld_unit_zero (S := S1x1x1x2048) hz4]

/-- The context block after the body: the product payload of the values `x2` and of the weights block as the body
    reads it back — which is what it has just stored there, the softmax payload. -/
theorem out4_eq (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x1x2048 .f32) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .f32) (x1 : Vec F S1x1x2048x64 .f32) (x2 : Vec F S1x1x2048x64 .f32) (x3 : Vec F S1x1x1x2048 .f32) :
    out0_A_4 c i arg3 harg3 arg4 harg4 arg5 harg5 arg6 harg6 arg7 harg7 arg8 harg8 x0 x1 x2 x3 = k0_pay1 (k0_pay3 x2) (k0_pay2 x0 x1 x3) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero hz4, View.readCov_unit_zero (S := S1x1x512x2048) _ hz4]
  simp only [View.readAt_eq_ld, harg3.read_unread, harg4.read_unread, harg5.read_unread, harg6.read_unread,
    View.ld_unit_zero (S := S1x1x512x64) hz4, View.ld_unit_zero (S := S1x1x2048x64) hz4, View.ld_unit_zero (S := S1x1x1x2048) hz4]

end Cert.Attn.Kern

end
-- ==== Proof.Blocks.lean ====
/-
  From what each grid point writes to the two result arrays.

  The grid has one point per (batch, head, tile of 512 query rows): 4 · 16 · 4 = 256 points.  At point (b, h, qi)
  the body sees rows 512·qi … 512·qi + 511 of head (b, h) of the queries, the whole head (b, h) of the keys and of
  the values, and batch b's mask row; it writes block (b, h, qi) of the context array ([1, 1, 512, 64]) and of the
  weights array ([1, 1, 512, 2048]).  Entry (p, ·) of a written block therefore sits at row 512·qi + p of head (b, h)
  of its array, and what the body computes there — the softmax weights of that query row against the head's keys,
  and their combination of the head's value rows — is the attention of the whole argument arrays at that entry.
  The 256 blocks of each result tile its array (row r of head (b, h) is in tile r / 512), so after the run each result
  array is the attention's, everywhere.
-/
import proofs.«158806_j16381005267233_2_alg».proof.Proof.Spec
import proofs.«158806_j16381005267233_2_alg».proof.Proof.Pieces
import proofs.«158806_j16381005267233_2_alg».proof.Proof.Payload
import proofs.«158806_j16381005267233_2_alg».proof.Proof.Gen.KernelIdeal.Value
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.Attn.Kern

open Cert.KernelIdeal Cert.KernelIdeal.Gen Cert.Attn

variable (m : (ℓ : Loc nD τ sig) → Buf (Elt Ideal) ℓ)

/-- The six index maps, compared over the 256 points: the query window and both result windows sit at the same
    (batch, head, tile, 0); the key and value windows at (batch, head, 0, 0); the mask window at (batch, 0, 0, 0); and
    the block indices stay in their ranges. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = 0 ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) ≤ 3 ∧ win0_5.index t (1 : Fin 4) ≤ 15 ∧ win0_5.index t (2 : Fin 4) ≤ 3
      ∧ win0_5.index t (3 : Fin 4) = 0) :=
  (by decide +kernel : ∀ t : Fin grid0.N, _)

/-- Every (batch, head, tile) is some point's. -/
theorem idx_onto : ∀ (q0 : Fin 4) (q1 : Fin 16) (q2 : Fin 4), ∃ t : Fin cfg0.N, win0_5.index t = ![q0.val, q1.val, q2.val, 0] :=
  (by decide +kernel : ∀ (q0 : Fin 4) (q1 : Fin 16) (q2 : Fin 4), ∃ t : Fin grid0.N, win0_5.index t = ![q0.val, q1.val, q2.val, 0])

/-- The weights payload at any entry of its block: row `y 2` of the tile, key `y 3`. -/
theorem weights_at (x0 : Vec Ideal S1x1x512x64 .f32) (x1 : Vec Ideal S1x1x2048x64 .f32) (x3 : Vec Ideal S1x1x1x2048 .f32) (y : S1x1x512x2048.Idx) :
    k0_pay2 (F := Ideal) x0 x1 x3 y
      = probsRow (fun d => x0 (ix4 0 0 (y 2) d)) (fun k d => x1 (ix4 0 0 k d)) (fun k => x3 (ix4 0 0 0 k)) (y 3) := by
  have hy : y = ix4 0 0 (y 2) (y 3) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl
  exact (congrArg (k0_pay2 (F := Ideal) x0 x1 x3) hy).trans (Cert.Attn.Body.weights_block x0 x1 x3 (y 2) (y 3))

/-- The context payload at any entry of its block: row `y 2` of the tile, feature `y 3`. -/
theorem context_at (x2 : Vec Ideal S1x1x2048x64 .f32) (w : Vec Ideal S1x1x512x2048 .f32) (y : S1x1x512x64.Idx) :
    k0_pay1 (F := Ideal) (k0_pay3 (F := Ideal) x2) w y
      = mixRow (fun k => w (ix4 0 0 (y 2) k)) (fun k d => x2 (ix4 0 0 k d)) (y 3) := by
  have hy : y = ix4 0 0 (y 2) (y 3) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl
  exact (congrArg (k0_pay1 (F := Ideal) (k0_pay3 (F := Ideal) x2) w) hy).trans (Cert.Attn.Body.context_block x2 w (y 2) (y 3))

/-- The query window's block at point `t`, read at `y`, is the queries' array at the entry whose batch, head and
    query-tile are the point's and whose row inside the tile and feature are `y`'s. -/
theorem qblk_at (c : Dev nD) (t : Fin cfg0.N) (y : S1x1x512x64.Idx) (i : S4x16x2048x64.Idx)
    (h0 : (i 0).val = win0_5.index t (0 : Fin 4)) (h1 : (i 1).val = win0_5.index t (1 : Fin 4))
    (h2 : (i 2).val = win0_5.index t (2 : Fin 4) * 512 + (y 2).val) (h3 : (i 3).val = (y 3).val) :
    iblk m c 0 t y = V m c main_arg0 i := by
  obtain ⟨⟨e0, e1, e2, e3⟩, -⟩ := idx_facts t
  show V m c main_arg0 (((cfg0.win 0).blk t).view.emb y) = V m c main_arg0 i
  refine congrArg _ (funext fun a => Fin.ext ?_)
  match a with
  | ⟨0, _⟩ => show win0_0.index t (0 : Fin 4) * 1 + 1 * (y 0).val = (i 0).val; have hy0 : (y 0).val < 1 := (y 0).isLt; omega
  | ⟨1, _⟩ => show win0_0.index t (1 : Fin 4) * 1 + 1 * (y 1).val = (i 1).val; have hy1 : (y 1).val < 1 := (y 1).isLt; omega
  | ⟨2, _⟩ => show win0_0.index t (2 : Fin 4) * 512 + 1 * (y 2).val = (i 2).val; omega
  | ⟨3, _⟩ => show win0_0.index t (3 : Fin 4) * 64 + 1 * (y 3).val = (i 3).val; omega

/-- The key window's block at point `t` is the whole head of the keys' array. -/
theorem kblk_at (c : Dev nD) (t : Fin cfg0.N) (y : S1x1x2048x64.Idx) (i : S4x16x2048x64.Idx)
    (h0 : (i 0).val = win0_5.index t (0 : Fin 4)) (h1 : (i 1).val = win0_5.index t (1 : Fin 4))
    (h2 : (i 2).val = (y 2).val) (h3 : (i 3).val = (y 3).val) :
    iblk m c 1 t y = V m c main_arg1 i := by
  obtain ⟨-, ⟨e0, e1, e2, e3⟩, -⟩ := idx_facts t
  show V m c main_arg1 (((cfg0.win 1).blk t).view.emb y) = V m c main_arg1 i
  refine congrArg _ (funext fun a => Fin.ext ?_)
  match a with
  | ⟨0, _⟩ => show win0_1.index t (0 : Fin 4) * 1 + 1 * (y 0).val = (i 0).val; have hy0 : (y 0).val < 1 := (y 0).isLt; omega
  | ⟨1, _⟩ => show win0_1.index t (1 : Fin 4) * 1 + 1 * (y 1).val = (i 1).val; have hy1 : (y 1).val < 1 := (y 1).isLt; omega
  | ⟨2, _⟩ => show win0_1.index t (2 : Fin 4) * 2048 + 1 * (y 2).val = (i 2).val; omega
  | ⟨3, _⟩ => show win0_1.index t (3 : Fin 4) * 64 + 1 * (y 3).val = (i 3).val; omega

/-- The value window's block at point `t` is the whole head of the values' array. -/
theorem vblk_at (c : Dev nD) (t : Fin cfg0.N) (y : S1x1x2048x64.Idx) (i : S4x16x2048x64.Idx)
    (h0 : (i 0).val = win0_5.index t (0 : Fin 4)) (h1 : (i 1).val = win0_5.index t (1 : Fin 4))
    (h2 : (i 2).val = (y 2).val) (h3 : (i 3).val = (y 3).val) :
    iblk m c 2 t y = V m c main_arg2 i := by
  obtain ⟨-, -, ⟨e0, e1, e2, e3⟩, -⟩ := idx_facts t
  show V m c main_arg2 (((cfg0.win 2).blk t).view.emb y) = V m c main_arg2 i
  refine congrArg _ (funext fun a => Fin.ext ?_)
  match a with
  | ⟨0, _⟩ => show win0_2.index t (0 : Fin 4) * 1 + 1 * (y 0).val = (i 0).val; have hy0 : (y 0).val < 1 := (y 0).isLt; omega
  | ⟨1, _⟩ => show win0_2.index t (1 : Fin 4) * 1 + 1 * (y 1).val = (i 1).val; have hy1 : (y 1).val < 1 := (y 1).isLt; omega
  | ⟨2, _⟩ => show win0_2.index t (2 : Fin 4) * 2048 + 1 * (y 2).val = (i 2).val; omega
  | ⟨3, _⟩ => show win0_2.index t (3 : Fin 4) * 64 + 1 * (y 3).val = (i 3).val; omega

/-- The mask window's block at point `t` is the batch's mask row. -/
theorem mblk_at (c : Dev nD) (t : Fin cfg0.N) (y : S1x1x1x2048.Idx) (i : S4x1x1x2048.Idx)
    (h0 : (i 0).val = win0_5.index t (0 : Fin 4)) (h3 : (i 3).val = (y 3).val) :
    iblk m c 3 t y = V m c main_arg3 i := by
  obtain ⟨-, -, -, ⟨e0, e1, e2, e3⟩, -⟩ := idx_facts t
  show V m c main_arg3 (((cfg0.win 3).blk t).view.emb y) = V m c main_arg3 i
  refine congrArg _ (funext fun a => Fin.ext ?_)
  match a with
  | ⟨0, _⟩ => show win0_3.index t (0 : Fin 4) * 1 + 1 * (y 0).val = (i 0).val; have hy0 : (y 0).val < 1 := (y 0).isLt; omega
  | ⟨1, _⟩ => show win0_3.index t (1 : Fin 4) * 1 + 1 * (y 1).val = (i 1).val; have hy1 : (y 1).val < 1 := (y 1).isLt; have hi1 : (i 1).val < 1 := (i 1).isLt; omega
  | ⟨2, _⟩ => show win0_3.index t (2 : Fin 4) * 1 + 1 * (y 2).val = (i 2).val; have hy2 : (y 2).val < 1 := (y 2).isLt; have hi2 : (i 2).val < 1 := (i 2).isLt; omega
  | ⟨3, _⟩ => show win0_3.index t (3 : Fin 4) * 2048 + 1 * (y 3).val = (i 3).val; omega

/-- WHAT POINT `t` WRITES BACK TO THE WEIGHTS is block `t` of the attention weights of the argument arrays: the
    body's softmax payload, read at an entry of the block, sees the query row, the head's keys and the batch's mask
    row that the entry's position in the whole array names. -/
theorem flushed5_eq (c : Dev nD) (t : Fin cfg0.N) :
    (dats m 0 c).flushed 5 t = ((cfg0.win 5).blk t).view.read (Elt Ideal)
      (weights (V m c main_arg0) (V m c main_arg1) (V m c main_arg3)) := by
  rw [Cert.KernelIdeal.Value.flushed5_A, out5_eq]
  obtain ⟨-, -, -, -, -, ⟨r0, r1, r2, r3⟩⟩ := idx_facts t
  funext j
  show k0_pay2 (iblk m c 0 t) (iblk m c 1 t) (iblk m c 3 t) j
    = weights (V m c main_arg0) (V m c main_arg1) (V m c main_arg3) (((cfg0.win 5).blk t).view.emb j)
  refine (weights_at (iblk m c 0 t) (iblk m c 1 t) (iblk m c 3 t) j).trans ?_
  have he0 : ((((cfg0.win 5).blk t).view.emb j) 0).val = win0_5.index t (0 : Fin 4) := by
    show win0_5.index t (0 : Fin 4) * 1 + 1 * (j 0).val = _; have hj : (j 0).val < 1 := (j 0).isLt; omega
  have he1 : ((((cfg0.win 5).blk t).view.emb j) 1).val = win0_5.index t (1 : Fin 4) := by
    show win0_5.index t (1 : Fin 4) * 1 + 1 * (j 1).val = _; have hj : (j 1).val < 1 := (j 1).isLt; omega
  have he2 : ((((cfg0.win 5).blk t).view.emb j) 2).val = win0_5.index t (2 : Fin 4) * 512 + (j 2).val := by
    show win0_5.index t (2 : Fin 4) * 512 + 1 * (j 2).val = _; omega
  have he3 : (((cfg0.win 5).blk t).view.emb j) 3 = j 3 := Fin.ext (by
    show win0_5.index t (3 : Fin 4) * 2048 + 1 * (j 3).val = (j 3).val; omega)
  have hq : (fun d => iblk m c 0 t (ix4 0 0 (j 2) d))
      = rowOf (V m c main_arg0) ((((cfg0.win 5).blk t).view.emb j) 0) ((((cfg0.win 5).blk t).view.emb j) 1) ((((cfg0.win 5).blk t).view.emb j) 2) :=
    funext fun d => qblk_at m c t _ _ he0 he1 he2 rfl
  have hk : (fun k d => iblk m c 1 t (ix4 0 0 k d))
      = headOf (V m c main_arg1) ((((cfg0.win 5).blk t).view.emb j) 0) ((((cfg0.win 5).blk t).view.emb j) 1) :=
    funext fun k => funext fun d => kblk_at m c t _ _ he0 he1 rfl rfl
  have hm : (fun k => iblk m c 3 t (ix4 0 0 0 k)) = maskOf (V m c main_arg3) ((((cfg0.win 5).blk t).view.emb j) 0) :=
    funext fun k => mblk_at m c t _ _ he0 rfl
  unfold weights
  rw [hq, hk, hm, he3]

/-- WHAT POINT `t` WRITES BACK TO THE CONTEXT is block `t` of the attention context of the argument arrays: the
    product payload of the head's values with the weights the body has just computed for the same query rows. -/
theorem flushed4_eq (c : Dev nD) (t : Fin cfg0.N) :
    (dats m 0 c).flushed 4 t = ((cfg0.win 4).blk t).view.read (Elt Ideal)
      (context (V m c main_arg0) (V m c main_arg1) (V m c main_arg2) (V m c main_arg3)) := by
  rw [Cert.KernelIdeal.Value.flushed4_A, out4_eq]
  obtain ⟨-, -, -, -, ⟨f0, f1, f2, f3⟩, ⟨r0, r1, r2, r3⟩⟩ := idx_facts t
  funext j
  show k0_pay1 (k0_pay3 (iblk m c 2 t)) (k0_pay2 (iblk m c 0 t) (iblk m c 1 t) (iblk m c 3 t)) j
    = context (V m c main_arg0) (V m c main_arg1) (V m c main_arg2) (V m c main_arg3) (((cfg0.win 4).blk t).view.emb j)
  refine (context_at (iblk m c 2 t) (k0_pay2 (iblk m c 0 t) (iblk m c 1 t) (iblk m c 3 t)) j).trans ?_
  have he0 : ((((cfg0.win 4).blk t).view.emb j) 0).val = win0_5.index t (0 : Fin 4) := by
    show win0_4.index t (0 : Fin 4) * 1 + 1 * (j 0).val = _; have hj : (j 0).val < 1 := (j 0).isLt; omega
  have he1 : ((((cfg0.win 4).blk t).view.emb j) 1).val = win0_5.index t (1 : Fin 4) := by
    show win0_4.index t (1 : Fin 4) * 1 + 1 * (j 1).val = _; have hj : (j 1).val < 1 := (j 1).isLt; omega
  have he2 : ((((cfg0.win 4).blk t).view.emb j) 2).val = win0_5.index t (2 : Fin 4) * 512 + (j 2).val := by
    show win0_4.index t (2 : Fin 4) * 512 + 1 * (j 2).val = _; omega
  have he3 : (((cfg0.win 4).blk t).view.emb j) 3 = j 3 := Fin.ext (by
    show win0_4.index t (3 : Fin 4) * 64 + 1 * (j 3).val = (j 3).val; omega)
  have hq : (fun d => iblk m c 0 t (ix4 0 0 (j 2) d))
      = rowOf (V m c main_arg0) ((((cfg0.win 4).blk t).view.emb j) 0) ((((cfg0.win 4).blk t).view.emb j) 1) ((((cfg0.win 4).blk t).view.emb j) 2) :=
    funext fun d => qblk_at m c t _ _ he0 he1 he2 rfl
  have hk : (fun k d => iblk m c 1 t (ix4 0 0 k d))
      = headOf (V m c main_arg1) ((((cfg0.win 4).blk t).view.emb j) 0) ((((cfg0.win 4).blk t).view.emb j) 1) :=
    funext fun k => funext fun d => kblk_at m c t _ _ he0 he1 rfl rfl
  have hv : (fun k d => iblk m c 2 t (ix4 0 0 k d))
      = headOf (V m c main_arg2) ((((cfg0.win 4).blk t).view.emb j) 0) ((((cfg0.win 4).blk t).view.emb j) 1) :=
    funext fun k => funext fun d => vblk_at m c t _ _ he0 he1 rfl rfl
  have hm : (fun k => iblk m c 3 t (ix4 0 0 0 k)) = maskOf (V m c main_arg3) ((((cfg0.win 4).blk t).view.emb j) 0) :=
    funext fun k => mblk_at m c t _ _ he0 rfl
  have hw : (fun k => k0_pay2 (iblk m c 0 t) (iblk m c 1 t) (iblk m c 3 t) (ix4 0 0 (j 2) k))
      = probsRow (rowOf (V m c main_arg0) ((((cfg0.win 4).blk t).view.emb j) 0) ((((cfg0.win 4).blk t).view.emb j) 1) ((((cfg0.win 4).blk t).view.emb j) 2))
          (headOf (V m c main_arg1) ((((cfg0.win 4).blk t).view.emb j) 0) ((((cfg0.win 4).blk t).view.emb j) 1))
          (maskOf (V m c main_arg3) ((((cfg0.win 4).blk t).view.emb j) 0)) :=
    funext fun k => (weights_at (iblk m c 0 t) (iblk m c 1 t) (iblk m c 3 t) (ix4 0 0 (j 2) k)).trans (by rw [← hq, ← hk, ← hm])
  unfold context
  rw [hw, hv, he3]

/-- An index of the weights array is in point `t`'s block iff each coordinate is in the block's range on its axis. -/
theorem mem_blk5 (t : Fin cfg0.N) (i : S4x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- The same for the context array. -/
theorem mem_blk4 (t : Fin cfg0.N) (i : S4x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Every entry of the weights array is in the block of the point whose batch and head are the entry's and whose
    query tile holds the entry's row: tile `q / 512`. -/
theorem cover5 (i : S4x16x2048x2048.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every entry of the context array likewise. -/
theorem cover4 (i : S4x16x2048x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, -, ⟨f0, f1, f2, f3⟩, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The weights array after the run: the attention weights of the argument arrays, everywhere. -/
theorem final5 (c : Dev nD) :
    (dats m 0 c).arrAt 5 cfg0.N = weights (V m c main_arg0) (V m c main_arg1) (V m c main_arg3) :=
  (dats m 0 c).arrAt_eq_of_cover 5 _ (fun t _ => flushed5_eq m c t) cover5

/-- The context array after the run: the attention context of the argument arrays, everywhere. -/
theorem final4 (c : Dev nD) :
    (dats m 0 c).arrAt 4 cfg0.N = context (V m c main_arg0) (V m c main_arg1) (V m c main_arg2) (V m c main_arg3) :=
  (dats m 0 c).arrAt_eq_of_cover 4 _ (fun t _ => flushed4_eq m c t) cover4

/-- The kernel's run, read: every weakly fair execution terminates with the context result at the attention context
    and the weights result at the attention weights of the argument arrays, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0)
        = context (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
        = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.Attn.Kern

end
-- ==== Proof.lean ====
/-
  Scaled dot-product attention with an additive key mask: a tiled kernel against the plain formula.

  Both programs take queries, keys and values [4, 16, 2048, 64] and a mask [4, 1, 1, 2048], and return the context
  [4, 16, 2048, 64] and the attention weights [4, 16, 2048, 2048].  For every (batch, head, query row) the weights are the
  softmax over the 2048 key positions of (query · key) · s + mask, computed the safe way (the row's maximum subtracted
  before the exponential, the exponentials divided by their sum), and the context is the weights' combination of the
  value rows.

  The kernel works tile by tile — 512 query rows of one head at a grid point, against the head's whole keys and values —,
  rounds its matrix operands to a shorter float format (the identity on extended reals), multiplies by the literal
  s = 0.125, and reads its own weights tile back for the second product.  The reference computes s as 1 / √64, guards
  its row maximum by a further maximum with -∞, and adds its row sums to a starting zero.  On the extended reals
  these are the same numbers: √64 = 8 and 1 / 8 is the value of the word 0.125; a fold of max from -∞ is at least
  -∞; zero plus a sum is the sum.  Nothing else differs but the order in which equal sums are taken, so the equality
  needs no finiteness of the inputs, and the precondition is never opened.

  The modules: Spec (the attention, one query row at a time, and the two result arrays), Consts (the float words and
  1 / √64 = 0.125), RefSide (the reference's two results are the specification's), Payload (the body's arithmetic at
  an entry of a tile), Pieces (what the body leaves in its two output blocks), Blocks (from the blocks to the arrays,
  and the kernel's run).  Here: the three frames, the idealization's (empty) ledger, and the two runs side by side.
-/
import proofs.«158806_j16381005267233_2_alg».proof.Defs
import proofs.«158806_j16381005267233_2_alg».proof.Proof.Gen.Kernel
import proofs.«158806_j16381005267233_2_alg».proof.Proof.Gen.Kernel.Skeleton
import proofs.«158806_j16381005267233_2_alg».proof.Proof.Gen.Kernel.Launch
import proofs.«158806_j16381005267233_2_alg».proof.Proof.Gen.Kernel.Points
import proofs.«158806_j16381005267233_2_alg».proof.Proof.Gen.Kernel.Frame
import proofs.«158806_j16381005267233_2_alg».proof.Proof.Gen.KernelIdeal
import proofs.«158806_j16381005267233_2_alg».proof.Proof.Gen.KernelIdeal.Skeleton
import proofs.«158806_j16381005267233_2_alg».proof.Proof.Gen.KernelIdeal.Launch
import proofs.«158806_j16381005267233_2_alg».proof.Proof.Gen.KernelIdeal.Points
import proofs.«158806_j16381005267233_2_alg».proof.Proof.Gen.KernelIdeal.Frame
import proofs.«158806_j16381005267233_2_alg».proof.Proof.Gen.ReferenceIdeal
import proofs.«158806_j16381005267233_2_alg».proof.Proof.Gen.Pre_finite_inputs
import proofs.«158806_j16381005267233_2_alg».proof.Proof.Gen.KernelIdeal.Value
import proofs.«158806_j16381005267233_2_alg».proof.Proof.Gen.ReferenceIdeal.Run
import proofs.«158806_j16381005267233_2_alg».proof.Proof.Gen.ReferenceIdeal.Read
import proofs.«158806_j16381005267233_2_alg».proof.Proof.Spec
import proofs.«158806_j16381005267233_2_alg».proof.Proof.Consts
import proofs.«158806_j16381005267233_2_alg».proof.Proof.RefSide
import proofs.«158806_j16381005267233_2_alg».proof.Proof.Payload
import proofs.«158806_j16381005267233_2_alg».proof.Proof.Pieces
import proofs.«158806_j16381005267233_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as they were. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- The reference is a straight line of array operations: its run ends, and its arguments are never written. -/
theorem frame_ri [Cert.ReferenceIdeal.Facts] [Cert.Pre_finite_inputs.Facts] : Cert.frame_ReferenceIdeal :=
  fun m ρ _ =>
    (θ_run Cert.ReferenceIdeal.defs _ _).mono (fun _ h c => (h c).2.2)
      (Cert.ReferenceIdeal.Value.run (F := Ideal) m ρ)

/-- The idealization rewrote no operation of the kernel. -/
theorem preserves : Cert.preserves_Kernel_KernelIdeal := trivial

/-- From memories that agree on the four arguments, the kernel's two result arrays end at the attention context and
    weights of its arguments (the run of Blocks), the reference's at the same two functions of its own (its run, read by
    RefSide) — equal, since the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.Attn.Kern.run m ρ, ?_⟩
  refine (θ_run Cert.ReferenceIdeal.defs _ _).mono (fun _ h c => ⟨?_, ?_, (h c).2.2⟩)
    (Cert.ReferenceIdeal.Value.run (F := Ideal) m' ρ')
  · refine ((h c).1.trans (Cert.ReferenceIdeal.Read.val_main_v18_eq _ _ _ _)).trans
      ((Cert.Attn.Ref.ref_context _ _ _ _).trans ?_)
    rw [(hagree c).1, (hagree c).2.1, (hagree c).2.2.1, (hagree c).2.2.2]
  · refine ((h c).2.1.trans (Cert.ReferenceIdeal.Read.val_main_v17_eq _ _ _)).trans
      ((Cert.Attn.Ref.ref_weights _ _ _).trans ?_)
    rw [(hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
